-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S1x1, .f32⟩
  | .hbm, ⟨5, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v24 : BitVec 1 := Scalar.cmpi .eq arg0 c63_i32
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .i1⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S33554432, .f32⟩
  | .hbm, ⟨11, _⟩ => ⟨S33554432, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Pieces.lean ====
/-
  What one grid point leaves behind, in each of the body's three control cases.

  The body keeps a running total in a 1×1 scratch cell. At the first point it stores zero there, reads it back and adds
  this point's block total; at every later point it adds the block total to what the point before left; at the last
  point it also divides the new total by the element count and stores the quotient in the 1×1 output block. Each store
  covers its whole cell, so what a cell holds afterwards is the last store's value, and a load that follows a store reads
  that store's value. The three stored values are the body's own terms: the zero cell, the accumulator plus the block
  total of the two loaded blocks, and the accumulator over the element count.
-/
import proofs.«108834_j21380347200134_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Huber

open Cert.KernelIdeal Cert.KernelIdeal.Gen

variable {F : FTy → Type} [FloatOps F]

/-- The zero offsets of a whole-cell access, as the constant-zero function. -/
theorem hz : (![0, 0] : Fin 2 → Nat) = fun _ => 0 := funext fun a => by fin_cases a <;> rfl

/-- The first point: zero stored, read back, and the block total of the two input blocks added to it. -/
theorem scratch_first (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S4096x128 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x128) hz]

/-- A middle point: the block total added to what the point before left in the scratch cell. -/
theorem scratch_middle (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S4096x128 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero (S := S1x1) hz]
  simp only [View.readAt_eq_ld, h1.read_unread, h2.read_unread, h4.read_unread, View.ld_unit_zero (S := S4096x128) hz,
    View.ld_unit_zero (S := S1x1) hz]

/-- The last point leaves the same in the scratch cell … -/
theorem scratch_last (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x128 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero (S := S1x1) hz]
  simp only [View.readAt_eq_ld, h1.read_unread, h2.read_unread, h4.read_unread, View.ld_unit_zero (S := S4096x128) hz,
    View.ld_unit_zero (S := S1x1) hz]

/-- … and, in the output block, that new total divided by the element count. -/
theorem out_last (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x128 .f32) (xs0 : Vec F S1x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero (S := S1x1) hz, View.readCov_unit_zero (S := S1x1) _ hz]
  simp only [View.readAt_eq_ld, h1.read_unread, h2.read_unread, h4.read_unread, View.ld_unit_zero (S := S4096x128) hz,
    View.ld_unit_zero (S := S1x1) hz]

end Cert.KernelIdeal.Huber

end
-- ==== Proof.Chain.lean ====
/-
  The running total over the grid.

  After point `n` the scratch cell holds the body's "accumulator plus block total" term applied `n + 1` times: to the
  stored zero at the first point, then at each later point to what the point before left, each time with that point's
  two input blocks. This is an induction on the point: every point after the first is a middle point or the last one, and
  both leave the same term in the scratch cell. At the last point the output block holds that final total divided by the
  element count.
-/
import proofs.«108834_j21380347200134_1_alg».proof.Proof.Pieces

noncomputable section

open Idealize.ShloMosaic Idealize.ShloMosaic.TcCoe Idealize.SL.Sem

namespace Cert.KernelIdeal.Huber

open Cert.KernelIdeal Cert.KernelIdeal.Gen

variable {F : FTy → Type} [FloatOps F]
variable (m : (ℓ : Loc nD τ sig) → Buf (Elt F) ℓ)

/-- The running total after point `n`: from the stored zero, one accumulate step per point up to `n`. -/
def total (c : Dev nD) : (n : ℕ) → n < cfg0.N → Vec F S1x1 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩) (total c n (Nat.lt_of_succ_lt h))

/-- What the scratch cell holds after point `n` is the running total: by induction on the point. -/
theorem scratch_eq (c : Dev nD) : ∀ (n : ℕ) (h : n < cfg0.N), (outsAt0 m c n h).2 = total m c n h
  | 0, h => by
    have h0 : (⟨0, h⟩ : Fin cfg0.N).val % 64 = 0 := Nat.zero_mod _
    have h1 : ¬(⟨0, h⟩ : Fin cfg0.N).val % 64 = 63 := by dsimp only; omega
    rw [outsAt0_A m c ⟨0, h⟩ h0 h1]
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩)
  | n + 1, h => by
    have hN : n + 1 < 64 := lt_of_lt_of_eq h (show cfg0.N = 64 from N_0)
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      refine (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) _).trans ?_
      show k0_pay2 _ _ (outsAt0 m c n _).2 = k0_pay2 _ _ (total m c n _)
      rw [scratch_eq c n]
    · rw [outsAt0_B m c ⟨n + 1, h⟩ h0 h1]
      refine (scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) _).trans ?_
      show k0_pay2 _ _ (outsAt0 m c n _).2 = k0_pay2 _ _ (total m c n _)
      rw [scratch_eq c n]

/-- At the last point the output block holds the final running total divided by the element count. -/
theorem out_eq (c : Dev nD) (t : Fin cfg0.N) (h1 : t.val % 64 = 63) :
    (outsAt0 m c t.val t.isLt).1 = k0_pay3 (total m c t.val t.isLt) := by
  obtain ⟨n, hn⟩ := t
  cases n with
  | zero => exfalso; dsimp only at h1; omega
  | succ n =>
    have h0 : ¬(⟨n + 1, hn⟩ : Fin cfg0.N).val % 64 = 0 := by dsimp only at h1 ⊢; omega
    rw [outsAt0_C m c ⟨n + 1, hn⟩ h0 h1]
    refine (out_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun hh => h0 ((hcond0_0 ⟨n + 1, hn⟩).mp hh)) ((hcond0_1 ⟨n + 1, hn⟩).mpr h1) (iblk m c 0 ⟨n + 1, hn⟩) (iblk m c 1 ⟨n + 1, hn⟩) _).trans ?_
    show k0_pay3 (k0_pay2 _ _ (outsAt0 m c n _).2) = k0_pay3 (k0_pay2 _ _ (total m c n _))
    rw [scratch_eq m c n]

end Cert.KernelIdeal.Huber

end
-- ==== Proof.Spec.lean ====
/-
  The function both programs compute.

  For two arrays `x`, `y` of 2^25 extended reals, the loss of one pair of entries is `d = x - y`, then `½ · d · d` where
  `|d| ≤ 1` and `|d|` elsewhere (`|d|` being `max d (-d)`); the result is the sum of all 2^25 losses, added to zero,
  divided by 2^25. The constants are kept as the f32 words the programs print (1, ½, 0 and 2^25): both programs carry the
  same words, so their values are never needed. A block of 4096 rows of 128 lanes contributes the sum of its losses, row
  by row.
-/
import Idealize.ShloMosaic.PureOps.Ideal
import Idealize.ShloMosaic.PureOps.Ideal.Laws
import Idealize.ShloMosaic.Lib.ValueIdx

noncomputable section

open scoped BigOperators

namespace Cert.Huber

open Idealize.ShloMosaic Idealize.ShloMosaic.ValueIdx

/-- The loss of one pair of entries: half the squared difference where the difference is at most one in size, its size
    elsewhere. -/
def loss (a b : Ideal .f32) : Ideal .f32 :=
  Scalar.select (FloatOps.cmpf .ole (FloatOps.absf (FloatOps.subf a b)) (FloatOps.ofBits .f32 0x3F800000#32))
    (FloatOps.mulf (FloatOps.mulf (FloatOps.ofBits .f32 0x3F000000#32) (FloatOps.subf a b)) (FloatOps.subf a b))
    (FloatOps.absf (FloatOps.subf a b))

/-- The sum of the losses over one block of 4096 rows of 128 lanes. -/
def blockTotal (x0 x1 : (⟨2, ![4096, 128]⟩ : Shape).Idx → Ideal .f32) : Ideal .f32 :=
  ∑ r : Fin 4096, ∑ l : Fin 128, loss (x0 (ix2 r l)) (x1 (ix2 r l))

/-- The sum of all the losses. -/
def lossSum (x y : (⟨1, ![33554432]⟩ : Shape).Idx → Ideal .f32) : Ideal .f32 :=
  ∑ i, loss (x i) (y i)

/-- The mean loss: zero plus the sum of all the losses, over the element count. -/
def meanLoss (x y : (⟨1, ![33554432]⟩ : Shape).Idx → Ideal .f32) : Ideal .f32 :=
  Ideal.div (Ideal.ofBits .f32 0x00000000#32 + lossSum x y) (Ideal.ofBits .f32 0x4C000000#32)

end Cert.Huber

end
-- ==== Proof.LibRows.lean ====
/-
  Row-by-row readings of two-axis arrays, for any sizes.

  A dense layer with a per-row normalisation touches an `n × b` array one row at a time: a product with a weight
  matrix (entry `(p, c)` is the sum over `q` of row `p` at `q` times the weight at `(q, c)`), a sum along each row,
  a per-row number broadcast back along its row, a per-column vector broadcast down the rows. Each lemma below reads
  one of these operations at an entry `(p, c)`, in the kernel's spelling (matmul into a zero accumulator, a lane
  reduction, vector broadcasts) and in the host's (a reduce with an initial value, broadcast-in-dim).
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.Lib.Rows

open Idealize.ShloMosaic Idealize.ShloMosaic.ValueIdx

variable {α : Type}

/-! ## Products -/

/-- An `m × k` by `k × n` matrix product accumulated into zero reads, at `(a, b)`, the sum over the contracted
    coordinate of the products of the entries: the same sum the host's product of the two matrices is. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Sums along a row -/

/-- The index of an `n × k` array over row `a` with the column `c` put back. -/
theorem lift_row {n k : ℕ} (h : (⟨2, ![n, k]⟩ : Shape).Reduces [1] ⟨1, ![n]⟩) (a : Fin n) (c : Fin k) :
    h.lift (ix1 a) c = ix2 a c := by
  funext ax; apply Fin.ext
  match ax with
  | ⟨0, _⟩ => rfl
  | ⟨1, _⟩ => rfl

/-- A lane reduction of an `n × k` array along its rows reads, at row `a`, the sum of that row. -/
theorem rowSum_apply {n k : ℕ} {φ : FTy} (src : FVec Ideal ⟨2, ![n, k]⟩ φ) (acc : BitVec φ.bits)
    (h : (⟨2, ![n, k]⟩ : Shape).Reduces [1] ⟨1, ![n]⟩) (hφ : FKind.Formats φ) (hacc : acc = FKind.add.neutral φ hφ) (a : Fin n) :
    multiReduction .add [1] ⟨1, ![n]⟩ src acc h hφ hacc (ix1 a) = ∑ c : Fin k, src (ix2 a c) := by
  rw [Ideal.multiReduction_add_single]
  exact Finset.sum_congr rfl fun c _ => congrArg src (lift_row h a c)

/-- The same for an f32 lane sum from the zero word, with the accumulator's side condition spelt as a program prints it
    (the word equal to itself). -/
theorem rowSum_f32_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = 0x00000000#32) (a : Fin n) :
    multiReduction .add [1] ⟨1, ![n]⟩ src 0x00000000#32 h hφ hacc (ix1 a) = ∑ c : Fin k, src (ix2 a c) :=
  rowSum_apply src 0x00000000#32 h hφ hacc a

/-- The exact row sums themselves (what a lane sum denotes on the extended reals), read at row `a`. -/
theorem reduceAdd_rows_apply {n k : ℕ} (x : (⟨2, ![n, k]⟩ : Shape).Idx → EReal)
    (h : (⟨2, ![n, k]⟩ : Shape).Reduces [1] ⟨1, ![n]⟩) (a : Fin n) :
    Ideal.reduceAdd h x (ix1 a) = ∑ c : Fin k, x (ix2 a c) := by
  rw [Ideal.reduceAdd_single]
  exact Finset.sum_congr rfl fun c _ => congrArg x (lift_row h a c)

/-- The host's exact row sums from an initial value, read at row `a`. -/
theorem hostReduceAdd_rows_apply {n k : ℕ} (x : (⟨2, ![n, k]⟩ : Shape).Idx → EReal) (init : EReal)
    (h' : (⟨2, ![n, k]⟩ : Shape).ReducesTo [1] ⟨1, ![n]⟩)
    (h : (⟨2, ![n, k]⟩ : Shape).Reduces [1] ⟨1, ![n]⟩) (a : Fin n) :
    Ideal.hostReduceAdd h' x init (ix1 a) = init + ∑ c : Fin k, x (ix2 a c) := by
  rw [Ideal.hostReduceAdd_single h' h]
  exact congrArg (init + ·) (Finset.sum_congr rfl fun c _ => congrArg x (lift_row h a c))

/-- The host's sum of an `n × k` array along its rows reads, at row `a`, the initial value plus the sum of that row. -/
theorem hostRowSum_apply {n k : ℕ} {φ : FTy} {u : Shape} (x : FVec Ideal ⟨2, ![n, k]⟩ φ) (init : u.Idx → Ideal φ)
    (h' : (⟨2, ![n, k]⟩ : Shape).ReducesTo [1] ⟨1, ![n]⟩) (hu : 0 < u.numel)
    (h : (⟨2, ![n, k]⟩ : Shape).Reduces [1] ⟨1, ![n]⟩) (a : Fin n) :
    Host.reduceAdd x init h' hu (ix1 a) = init (Shape.Idx.first hu) + ∑ c : Fin k, x (ix2 a c) := by
  show Ideal.hostReduceAdd h' x (init (Shape.Idx.first hu)) (ix1 a) = _
  rw [Ideal.hostReduceAdd_single h' h]
  exact congrArg (init (Shape.Idx.first hu) + ·) (Finset.sum_congr rfl fun c _ => congrArg x (lift_row h a c))

/-! ## A per-row number broadcast along its row -/

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the same: an `a × 1` column broadcast in place (axes kept) to `a × b`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A per-column vector broadcast down the rows -/

/-- The host's spelling of one row over many: a `1 × b` row broadcast in place to `a × b` reads, at `(p, c)`, the row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector made a `1 × b` row by a broadcast along a new leading axis reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A scalar broadcast to any shape reads the scalar everywhere. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

end Cert.Lib.Rows

end
-- ==== Proof.LibKeepdims.lean ====
/-
  Sums that keep a unit axis, read at an entry, for any length.

  A sum along the lanes of an `n × k` block gives a length-`n` vector; kept as an `n × 1` column it is summed again, down
  the column, into a one-entry vector, which is kept as a `1 × 1` cell. Each re-shaping moves no entry: position `r` of
  the vector is entry `(r, 0)` of the column, and the one entry of the one-entry vector is the one entry of the cell. The
  column sum at its one result entry is the sum of the column's `n` entries.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A length-`a` vector kept as an `a × 1` column reads, at `(r, u)`, the vector at `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) := by
  refine shapeCast_apply x h (ix2 r u) (ix1 r) ?_
  rw [Shape.rowMajor_val_one, Shape.rowMajor_val_two]
  show r.val = r.val * 1 + u.val
  have := u.isLt
  omega

/-- A one-entry vector kept as a `1 × 1` cell reads, at the cell's entry, the vector's entry. -/
theorem shapeCast_1_11_apply (x : (⟨1, ![1]⟩ : Shape).Idx → α)
    (h : (⟨1, ![1]⟩ : Shape).ShapeCasts ⟨2, ![1, 1]⟩) (j : (⟨2, ![1, 1]⟩ : Shape).Idx) :
    shapeCast ⟨2, ![1, 1]⟩ x h j = x (ix1 (0 : Fin 1)) := by
  refine shapeCast_apply x h j (ix1 (0 : Fin 1)) ?_
  rw [Shape.rowMajor_val_one, Shape.rowMajor_val_two]
  show (0 : ℕ) = (j 0).val * 1 + (j 1).val
  have h0 : (j 0).val < 1 := (j 0).isLt
  have h1 : (j 1).val < 1 := (j 1).isLt
  omega

/-- A `1 × 1` cell flattened to a scalar reads the cell's entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  refine shapeCast_apply x h j (ix2 (0 : Fin 1) (0 : Fin 1)) ?_
  rw [Shape.rowMajor_val_two]
  show (0 : ℕ) * 1 + 0 = _
  have := ((⟨0, ![]⟩ : Shape).rowMajor j).isLt
  have hn : (⟨0, ![]⟩ : Shape).numel = 1 := rfl
  omega

/-- The index of an `n × 1` column over the one result entry with the row `r` put back. -/
theorem lift_col {n : ℕ} (h : (⟨2, ![n, 1]⟩ : Shape).Reduces [0] ⟨1, ![1]⟩) (j : (⟨1, ![1]⟩ : Shape).Idx) (r : Fin n) :
    h.lift j r = ix2 r (0 : Fin 1) := by
  funext ax; apply Fin.ext
  match ax with
  | ⟨0, _⟩ => rfl
  | ⟨1, _⟩ =>
    show (j 0).val = 0
    have : (j 0).val < 1 := (j 0).isLt
    omega

/-- An f32 sum down an `n × 1` column from the zero word reads, at its one entry, the sum of the column's entries. -/
theorem colSum_f32_apply {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (j : (⟨1, ![1]⟩ : Shape).Idx) :
    multiReduction .add [0] ⟨1, ![1]⟩ src 0x00000000#32 h hφ hacc j = ∑ r : Fin n, src (ix2 r (0 : Fin 1)) := by
  refine (Ideal.multiReduction_add_single src 0x00000000#32 h hφ hacc j).trans ?_
  exact Finset.sum_congr rfl fun r _ => congrArg src (lift_col h j r)

end Cert.Lib.Keepdims

end
-- ==== Proof.Payload.lean ====
/-
  The body's three stored values, read on the extended reals.

  The stored zero is the zero word at the cell's entry. The accumulate step is the accumulator's entry plus the block
  total: the body takes the loss entry by entry, sums each row along its lanes, keeps the row sums as a column, sums the
  column, and adds the one resulting number to the accumulator. The final store is the accumulator's entry divided by the
  element-count word.
-/
import proofs.«108834_j21380347200134_1_alg».proof.Proof.Gen.KernelIdeal.Skeleton
import proofs.«108834_j21380347200134_1_alg».proof.Proof.Spec
import proofs.«108834_j21380347200134_1_alg».proof.Proof.LibRows
import proofs.«108834_j21380347200134_1_alg».proof.Proof.LibKeepdims

noncomputable section

open Idealize.ShloMosaic Idealize.ShloMosaic.TcCoe Idealize.SL.Sem Idealize.ShloMosaic.ValueIdx

namespace Cert.KernelIdeal.Huber

open Cert.KernelIdeal Cert.KernelIdeal.Gen Cert.Huber

/-- The stored zero, at the cell's entry, is the zero word. -/
theorem zero_apply (j : S1x1.Idx) : k0_pay1 (F := Ideal) j = Ideal.ofBits .f32 0x00000000#32 := by
  unfold k0_pay1
  simp only [shapeCast_self]
  rfl

/-- The accumulate step, at the cell's entry: the accumulator's entry plus the block's total loss. -/
theorem step_apply (x0 x1 : FVec Ideal S4096x128 .f32) (acc : FVec Ideal S1x1 .f32) (j : S1x1.Idx) :
    k0_pay2 (F := Ideal) x0 x1 acc j = acc j + blockTotal x0 x1 := by
  unfold k0_pay2
  simp only [shapeCast_self]
  refine congrArg (acc j + ·) ?_
  refine (Cert.Lib.Keepdims.shapeCast_1_11_apply _ _ j).trans ?_
  refine (Cert.Lib.Keepdims.colSum_f32_apply _ _ _ _ _).trans ?_
  unfold blockTotal
  refine Finset.sum_congr rfl fun r _ => ?_
  refine (Cert.Lib.Keepdims.shapeCast_a_a1_apply _ _ r 0).trans ?_
  refine (Cert.Lib.Rows.rowSum_f32_apply _ _ _ _ r).trans ?_
  rfl

/-- The final store, at the cell's entry: the accumulator's entry over the element-count word. -/
theorem mean_apply (v : FVec Ideal S1x1 .f32) (j : S1x1.Idx) :
    k0_pay3 (F := Ideal) v j = Ideal.div (v j) (Ideal.ofBits .f32 0x4C000000#32) := by
  unfold k0_pay3
  rfl

end Cert.KernelIdeal.Huber

end
-- ==== Proof.Blocks.lean ====
/-
  The input blocks, as entries of the flat argument arrays.

  Before the kernel runs, each flat argument of 2^25 entries is re-shaped to 262144 rows of 128 lanes, which moves no
  entry: row `R`, lane `l` is position `R · 128 + l`. At grid point `t` each input window holds rows `4096 t` to
  `4096 t + 4095` of its array, all 128 lanes. So entry `(r, l)` of the block at point `t` is position
  `(4096 t + r) · 128 + l` of the flat argument.
-/
import proofs.«108834_j21380347200134_1_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Huber

open Cert.KernelIdeal Cert.KernelIdeal.Gen

variable {F : FTy → Type} [FloatOps F]
variable (m : (ℓ : Loc nD τ sig) → Buf (Elt F) ℓ)

/-- The first input window's array, as the kernel finds it, is the first argument re-shaped to rows of 128 lanes. -/
theorem V_main_v0 (c : Dev nD) :
    (V m c main_v0 : S262144x128.Idx → Elt F .f32)
      = shapeCast S262144x128 (m ((c : Thread nD τ).loc main_arg0)) shapeCasts_S33554432_S262144x128 := by
  show StableHlo.after hostOps0 (fun b => m (c, b)) (Proc.devRef .tc main_v0) = _
  after_results
  rfl

/-- The second input window's array is the second argument re-shaped the same way. -/
theorem V_main_v1 (c : Dev nD) :
    (V m c main_v1 : S262144x128.Idx → Elt F .f32)
      = shapeCast S262144x128 (m ((c : Thread nD τ).loc main_arg1)) shapeCasts_S33554432_S262144x128 := by
  show StableHlo.after hostOps0 (fun b => m (c, b)) (Proc.devRef .tc main_v1) = _
  after_results
  rfl

/-- At point `t` both input windows sit at block row `t`, lane block `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry `(r, l)` of the block of the first argument at point `t` is the argument's entry `(4096 t + r) · 128 + l`. -/
theorem block0_apply (c : Dev nD) (t : Fin cfg0.N) (r : Fin 4096) (l : Fin 128)
    (hp : (t.val * 4096 + r.val) * 128 + l.val < 33554432) :
    (iblk m c 0 t : Vec F S4096x128 .f32) (ix2 r l)
      = m ((c : Thread nD τ).loc main_arg0) (ix1 ⟨(t.val * 4096 + r.val) * 128 + l.val, hp⟩) := by
  obtain ⟨h00, h01, h10, h11⟩ := idx_facts t
  unfold iblk
  rw [View.read_apply]
  show V m c main_v0 (((cfg0.win 0).blk t).view.emb (ix2 r l)) = _
  rw [V_main_v0]
  refine shapeCast_apply _ _ _ _ ?_
  show (S33554432.rowMajor (ix1 ⟨(t.val * 4096 + r.val) * 128 + l.val, hp⟩)).val = (S262144x128.rowMajor _).val
  rw [Shape.rowMajor_val_one, Shape.rowMajor_val_two]
  show (t.val * 4096 + r.val) * 128 + l.val
    = (win0_0.index t 0 * 4096 + 1 * r.val) * 128 + (win0_0.index t 1 * 128 + 1 * l.val)
  rw [h00, h01]
  omega

/-- Entry `(r, l)` of the block of the second argument at point `t` is the argument's entry `(4096 t + r) · 128 + l`. -/
theorem block1_apply (c : Dev nD) (t : Fin cfg0.N) (r : Fin 4096) (l : Fin 128)
    (hp : (t.val * 4096 + r.val) * 128 + l.val < 33554432) :
    (iblk m c 1 t : Vec F S4096x128 .f32) (ix2 r l)
      = m ((c : Thread nD τ).loc main_arg1) (ix1 ⟨(t.val * 4096 + r.val) * 128 + l.val, hp⟩) := by
  obtain ⟨h00, h01, h10, h11⟩ := idx_facts t
  unfold iblk
  rw [View.read_apply]
  show V m c main_v1 (((cfg0.win 1).blk t).view.emb (ix2 r l)) = _
  rw [V_main_v1]
  refine shapeCast_apply _ _ _ _ ?_
  show (S33554432.rowMajor (ix1 ⟨(t.val * 4096 + r.val) * 128 + l.val, hp⟩)).val = (S262144x128.rowMajor _).val
  rw [Shape.rowMajor_val_one, Shape.rowMajor_val_two]
  show (t.val * 4096 + r.val) * 128 + l.val
    = (win0_1.index t 0 * 4096 + 1 * r.val) * 128 + (win0_1.index t 1 * 128 + 1 * l.val)
  rw [h10, h11]
  omega

end Cert.KernelIdeal.Huber

end
-- ==== Proof.LibBlockSum.lean ====
/-
  A sum over a long one-axis index set, cut into equal blocks.

  An array of `N = a * b` entries laid out in `a` consecutive blocks of `b` entries has entry `i * b + j` at offset `j` of
  block `i`; so a sum over all `N` entries is the sum over the blocks of the sum over the offsets. Cutting twice
  (`N = a * b * c`: blocks of rows of lanes) gives a triple sum with entry `(t * b + r) * c + l` at lane `l` of row `r` of
  block `t`. The sums are in any commutative monoid: only the order and grouping of the terms change.
-/
import Mathlib.Algebra.BigOperators.Fin
import Mathlib.Logic.Equiv.Fin.Basic
import Idealize.ShloMosaic.Lib.ValueIdx

noncomputable section

open scoped BigOperators

namespace Cert.Lib.BlockSum

open Idealize.ShloMosaic Idealize.ShloMosaic.ValueIdx

/-- Offset `j` of block `i`, of `a` blocks of length `b`, is a position below `a * b`. -/
theorem blockPos_lt {a b N : ℕ} (hN : a * b = N) (i : Fin a) (j : Fin b) : i.val * b + j.val < N := by
  subst hN
  calc i.val * b + j.val < i.val * b + b := by have := j.isLt; omega
    _ = (i.val + 1) * b := by ring
    _ ≤ a * b := Nat.mul_le_mul_right b i.isLt

/-- A sum over `a * b` positions is the sum over the `a` blocks of the sum over the `b` offsets. -/
theorem sum_fin_blocks {A : Type*} [AddCommMonoid A] {a b N : ℕ} (hN : a * b = N) (f : Fin N → A) :
    ∑ k, f k = ∑ i : Fin a, ∑ j : Fin b, f ⟨i.val * b + j.val, blockPos_lt hN i j⟩ := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm]; omega

/-- A rank-1 index set is its coordinate's range, so a sum over it is the sum over the coordinate. -/
theorem sum_idx1 {A : Type*} [AddCommMonoid A] {n : ℕ} (f : (⟨1, ![n]⟩ : Shape).Idx → A) :
    ∑ i, f i = ∑ k : Fin n, f (ix1 k) := by
  let e : (⟨1, ![n]⟩ : Shape).Idx ≃ Fin n :=
    { toFun := fun i => i 0, invFun := fun k => ix1 k, left_inv := fun i => (eq_ix1 i).symm, right_inv := fun _ => rfl }
  rw [← Equiv.sum_comp e.symm f]
  rfl

/-- Lane `l` of row `r` of block `t`, of `a` blocks of `b` rows of `c` lanes, is a position below `a * b * c`. -/
theorem lanePos_lt {a b c N : ℕ} (hN : a * b * c = N) (t : Fin a) (r : Fin b) (l : Fin c) :
    (t.val * b + r.val) * c + l.val < N :=
  blockPos_lt (a := a * b) hN ⟨t.val * b + r.val, blockPos_lt rfl t r⟩ l

/-- A sum over a one-axis index set of `a * b * c` entries is the triple sum over blocks, rows and lanes. -/
theorem sum_idx1_blocks {A : Type*} [AddCommMonoid A] {a b c N : ℕ} (hN : a * b * c = N)
    (f : (⟨1, ![N]⟩ : Shape).Idx → A) :
    ∑ i, f i = ∑ t : Fin a, ∑ r : Fin b, ∑ l : Fin c, f (ix1 ⟨(t.val * b + r.val) * c + l.val, lanePos_lt hN t r l⟩) := by
  rw [sum_idx1, sum_fin_blocks (a := a * b) (b := c) hN, sum_fin_blocks (a := a) (b := b) (N := a * b) rfl]

end Cert.Lib.BlockSum

end
-- ==== Proof.Total.lean ====
/-
  The running total on the extended reals, and the final total as the sum of all the losses.

  After point `n` the scratch cell's entry is the zero word plus the block totals of points `0` to `n`, added in point
  order: each accumulate step adds one block total to the entry before. After the last point, 63, that is zero plus the
  sum of the 64 block totals. Block `t`'s total is the sum over its 4096 rows and 128 lanes of the losses at positions
  `(4096 t + r) · 128 + l` of the flat arguments, and these positions run through all 2^25 exactly once; addition of
  extended reals is commutative and associative, so the sum of the 64 block totals is the sum of all the losses.
-/
import proofs.«108834_j21380347200134_1_alg».proof.Proof.Chain
import proofs.«108834_j21380347200134_1_alg».proof.Proof.Payload
import proofs.«108834_j21380347200134_1_alg».proof.Proof.Blocks
import proofs.«108834_j21380347200134_1_alg».proof.Proof.LibBlockSum

noncomputable section

open scoped BigOperators
open Idealize.ShloMosaic Idealize.ShloMosaic.TcCoe Idealize.SL.Sem Idealize.ShloMosaic.ValueIdx

namespace Cert.KernelIdeal.Huber

open Cert.KernelIdeal Cert.KernelIdeal.Gen Cert.Huber

variable (m : (ℓ : Loc nD τ sig) → Buf (Elt Ideal) ℓ)

/-- The total loss of the two input blocks at point `k` (zero past the grid's end). -/
def blockAt (c : Dev nD) (k : ℕ) : Ideal .f32 :=
  if h : k < cfg0.N then blockTotal (iblk m c 0 ⟨k, h⟩ : Vec Ideal S4096x128 .f32) (iblk m c 1 ⟨k, h⟩ : Vec Ideal S4096x128 .f32) else 0

/-- After point `n` the scratch cell's entry is zero plus the block totals of the points up to `n`. -/
theorem total_apply (c : Dev nD) : ∀ (n : ℕ) (h : n < cfg0.N) (j : S1x1.Idx),
    total m c n h j = Ideal.ofBits .f32 0x00000000#32 + ∑ k ∈ Finset.range (n + 1), blockAt m c k
  | 0, h, j => by
    refine (step_apply (iblk m c 0 ⟨0, h⟩) (iblk m c 1 ⟨0, h⟩) (k0_pay1 (F := Ideal)) j).trans ?_
    rw [zero_apply, Finset.sum_range_one]
    unfold blockAt
    rw [dif_pos h]
  | n + 1, h, j => by
    refine (step_apply (iblk m c 0 ⟨n + 1, h⟩) (iblk m c 1 ⟨n + 1, h⟩) (total m c n (Nat.lt_of_succ_lt h)) j).trans ?_
    rw [total_apply c n _ j, Finset.sum_range_succ _ (n + 1), add_assoc]
    congr 2
    unfold blockAt
    rw [dif_pos h]

/-- The 64 block totals add up to the sum of all the losses of the two flat arguments. -/
theorem sum_blockAt (c : Dev nD) :
    ∑ k ∈ Finset.range 64, blockAt m c k
      = lossSum (m ((c : Thread nD τ).loc main_arg0)) (m ((c : Thread nD τ).loc main_arg1)) := by
  rw [Finset.sum_range]
  unfold lossSum
  rw [Cert.Lib.BlockSum.sum_idx1_blocks (a := 64) (b := 4096) (c := 128) (by norm_num)]
  refine Finset.sum_congr rfl fun t _ => ?_
  have ht : t.val < cfg0.N := lt_of_lt_of_eq t.isLt (show cfg0.N = 64 from N_0).symm
  unfold blockAt
  rw [dif_pos ht]
  unfold blockTotal
  refine Finset.sum_congr rfl fun r _ => Finset.sum_congr rfl fun l _ => ?_
  exact congrArg₂ loss (block0_apply m c ⟨t.val, ht⟩ r l _) (block1_apply m c ⟨t.val, ht⟩ r l _)

/-- After the last point the scratch cell's entry is zero plus the sum of all the losses. -/
theorem total_last (c : Dev nD) (h : 63 < cfg0.N) (j : S1x1.Idx) :
    total m c 63 h j = Ideal.ofBits .f32 0x00000000#32
      + lossSum (m ((c : Thread nD τ).loc main_arg0)) (m ((c : Thread nD τ).loc main_arg1)) := by
  rw [total_apply m c 63 h j, sum_blockAt]

end Cert.KernelIdeal.Huber

end
-- ==== Proof.KernelRun.lean ====
/-
  The kernel's result.

  The output window is a single 1×1 block that only the last grid point writes back, so after the run the output array is
  what that point left in the block: the final running total over the element count. After the kernel the 1×1 array is
  flattened to a scalar, which moves its one entry. Hence the program's result is (zero plus the sum of all the losses)
  over the element count, and its two arguments are unchanged.
-/
import proofs.«108834_j21380347200134_1_alg».proof.Proof.Total
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Huber

open Cert.KernelIdeal Cert.KernelIdeal.Gen Cert.Huber

variable (m : (ℓ : Loc nD τ sig) → Buf (Elt Ideal) ℓ) (ρ : Dev nD → PrngReg)

/-- The last grid point. -/
theorem h63 : 63 < cfg0.N := lt_of_lt_of_eq (by norm_num : 63 < 64) (show cfg0.N = 64 from N_0).symm

/-- The output array after the run: the final running total over the element count. -/
abbrev cell (c : Dev nD) : Buf (Elt Ideal) ((c : Thread nD τ).loc main_v2) := k0_pay3 (total m c 63 h63)

/-- The output window never moves: block `(0, 0)`, one row and one lane, at every point. -/
theorem out_facts : ∀ t : Fin cfg0.N, win0_2.index t (0 : Fin 2) = 0 ∧ win0_2.index t (1 : Fin 2) = 0
    ∧ win0_2.xsize (grid0.coords t) (0 : Fin 2) = 1 ∧ win0_2.xsize (grid0.coords t) (1 : Fin 2) = 1 :=
  (by decide +kernel : ∀ t : Fin grid0.N, win0_2.index t (0 : Fin 2) = 0 ∧ win0_2.index t (1 : Fin 2) = 0
    ∧ win0_2.xsize (grid0.coords t) (0 : Fin 2) = 1 ∧ win0_2.xsize (grid0.coords t) (1 : Fin 2) = 1)

/-- The one write-back, at the last point, writes that cell: the block is the whole array. -/
theorem flushed_eq (c : Dev nD) (t : Fin cfg0.N) (hf : (cfg0.win 2).flush t = true) :
    (dats m 0 c).flushed 2 t = ((cfg0.win 2).blk t).view.read (Elt Ideal) (cell m c) := by
  have h1 : t.val % 64 = 63 := (flush0_2 t).mp hf
  have hN : t.val < 64 := lt_of_lt_of_eq t.isLt (show cfg0.N = 64 from N_0)
  obtain rfl : t = ⟨63, h63⟩ := Fin.ext (by show t.val = 63; omega)
  show (cfg0.win 2).cut (grid0.coords ⟨63, h63⟩) ((dats m 0 c).after 2 ⟨63, h63⟩) = _
  rw [after0_2, out_eq m c ⟨63, h63⟩ h1]
  obtain ⟨i0, i1, -, -⟩ := out_facts ⟨63, h63⟩
  have hz' : (fun a => win0_2.index ⟨63, h63⟩ a * main_v2.ty.shape.size a) = fun _ => 0 := funext fun a => by
    match a with
    | ⟨0, _⟩ => show win0_2.index ⟨63, h63⟩ 0 * 1 = 0; rw [i0]
    | ⟨1, _⟩ => show win0_2.index ⟨63, h63⟩ 1 * 1 = 0; rw [i1]
  exact (Memref.read_access_unit_zero (Elt Ideal) main_v2 hz' (fun a => by rw [congrFun hz' a]; simp) (cell m c)).symm

/-- So the output array ends holding it. -/
theorem cell_final (c : Dev nD) : (dats m 0 c).arrAt 2 cfg0.N = cell m c :=
  (dats m 0 c).arrAt_eq_of_cover 2 (cell m c) (flushed_eq m c) fun i =>
    ⟨⟨63, h63⟩, (flush0_2 ⟨63, h63⟩).mpr (by norm_num), by
      show i ∈ ((View.whole main_v2).slice (win0_2.rect ⟨63, h63⟩)).set
      rw [View.set_slice_whole, Rect.mem_set_unit]
      intro a
      have h0 : (i 0 : Nat) < 1 := (i 0).isLt
      have h1 : (i 1 : Nat) < 1 := (i 1).isLt
      obtain ⟨i0, i1, x0, x1⟩ := out_facts ⟨63, h63⟩
      match a with
      | ⟨0, _⟩ =>
        show win0_2.index ⟨63, h63⟩ 0 * win0_2.size 0 ≤ (i 0 : Nat)
          ∧ (i 0 : Nat) < win0_2.index ⟨63, h63⟩ 0 * win0_2.size 0 + win0_2.xsize (grid0.coords ⟨63, h63⟩) 0
        rw [i0, x0]; omega
      | ⟨1, _⟩ =>
        show win0_2.index ⟨63, h63⟩ 1 * win0_2.size 1 ≤ (i 1 : Nat)
          ∧ (i 1 : Nat) < win0_2.index ⟨63, h63⟩ 1 * win0_2.size 1 + win0_2.xsize (grid0.coords ⟨63, h63⟩) 1
        rw [i1, x1]; omega⟩

/-- The program's result after the flattening that follows the kernel: the mean loss of the two arguments. -/
theorem tail_eq (c : Dev nD) :
    Pipeline.afterTail₀ cfgs (dats m) 0 (V0 m) [hostOps1] c main_v3
      = fun _ => meanLoss (m ((c : Thread nD τ).loc main_arg0)) (m ((c : Thread nD τ).loc main_arg1)) := by
  unfold Pipeline.afterTail₀
  show StableHlo.after hostOps1 _ (Proc.devRef .tc main_v3) = _
  after_results
  funext j
  show shapeCast S_ (Pipeline.withArrays (cfgs 0).spec c (V0 m c) (fun w => (dats m 0 c).arrAt w (cfgs 0).N)
    (Proc.devRef .tc main_v2)) shapeCasts_S1x1_S_ j = _
  refine (Cert.Lib.Keepdims.shapeCast_11_scalar_apply _ _ j).trans ?_
  have hA : Pipeline.withArrays (cfgs 0).spec c (V0 m c) (fun w => (dats m 0 c).arrAt w (cfgs 0).N)
      (Proc.devRef .tc main_v2) = cell m c :=
    (Pipeline.withArrays_arr spec0 launch0.win.arr_inj c _ _ 2).trans (cell_final m c)
  rw [hA]
  show k0_pay3 (total m c 63 h63) (ix2 (0 : Fin 1) (0 : Fin 1)) = _
  rw [mean_apply, total_last]
  rfl

/-- The kernel program's run: it terminates with its result at the mean loss of its arguments, which it leaves unchanged. -/
theorem run : θ_run defs (onTc (τ := τ) (main (F := Ideal))) ⟨m, fun _ => 0, ρ⟩ fun r => ∀ c : Dev nD,
      r.2.mem ((c.tc : Thread nD τ).loc main_v3)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Huber

end
-- ==== Proof.Reference.lean ====
/-
  The reference's result is the mean loss.

  The reference takes the difference of the two flat arrays entry by entry, its size, compares that with one, selects
  half the squared difference or the size, sums all 2^25 selected values from zero, and divides by the element count. Read
  at an entry, each step is the loss's own step; the host's absolute value and quotient are the same extended-real
  operations the kernel's are.
-/
import proofs.«108834_j21380347200134_1_alg».proof.Proof.Gen.ReferenceIdeal.Read
import proofs.«108834_j21380347200134_1_alg».proof.Proof.Spec

noncomputable section

open scoped BigOperators
open Idealize.ShloMosaic Idealize.ShloMosaic.TcCoe Idealize.SL.Sem

namespace Cert.ReferenceIdeal.Huber

open Cert.ReferenceIdeal Cert.ReferenceIdeal.Read Cert.Huber

/-- The selected value at entry `j` is the loss of the two arrays' entries there. -/
theorem selected_apply (x0 x1 : (⟨S33554432, .f32⟩ : BufTy).Contents (Elt Ideal)) (j : S33554432.Idx) :
    val_main_v7 (F := Ideal) x0 x1 j = loss (x0 j) (x1 j) := by
  rw [val_main_v7_apply, val_main_v3_apply, val_main_v6_apply, val_main_v5_apply, val_main_v1_apply,
    val_main_v0_apply, val_main_v2_apply, val_main_v4_apply, val_main_cst_apply, val_main_cst_0_apply]
  rfl

/-- The reference's last stage is the mean loss of its two arguments. -/
theorem result_eq (x0 x1 : (⟨S33554432, .f32⟩ : BufTy).Contents (Elt Ideal)) :
    val_main_v9 (F := Ideal) x0 x1 = fun _ => meanLoss x0 x1 := by
  funext i
  rw [val_main_v9_apply, val_main_v8_apply, val_main_cst_2_apply, val_main_cst_1_apply]
  show Ideal.div (Ideal.ofBits .f32 0x00000000#32 + ∑ j : S33554432.Idx, val_main_v7 (F := Ideal) x0 x1 j)
    (Ideal.ofBits .f32 0x4C000000#32) = meanLoss x0 x1
  have hs : ∑ j : S33554432.Idx, val_main_v7 (F := Ideal) x0 x1 j = lossSum x0 x1 :=
    Finset.sum_congr rfl fun j _ => selected_apply x0 x1 j
  rw [hs]
  rfl

end Cert.ReferenceIdeal.Huber

end
-- ==== Proof.lean ====
/-
  The kernel and its reference compute the same mean loss.

  Both programs take two flat arrays `x`, `y` of 2^25 numbers and return one number: with `d = x - y` entry by entry,
  the loss `½ · d · d` where `|d| ≤ 1` and `|d|` elsewhere, summed over all entries and divided by 2^25. The reference
  sums all 2^25 losses at once. The kernel views each array as 262144 rows of 128 lanes and walks 64 blocks of 4096 rows:
  in each block it sums every row along its lanes, sums the 4096 row sums, and adds that block total to a running total it
  keeps between blocks (set to zero at the first block); after the last block it divides the running total by 2^25.

  On the extended reals every operation is exact, so the kernel's result is zero plus the 64 block totals in block order,
  over 2^25, and the reference's is zero plus the sum of all the losses, over 2^25. The blocks' rows and lanes run through
  every position of the flat arrays exactly once, and addition of extended reals is commutative and associative, so the two
  totals are the same sum differently grouped. Nothing here needs the inputs to be finite: no factor is moved across a sum
  and nothing is cancelled. Both programs carry the same four constants (1, ½, 0, 2^25) as the same f32 words.

  The kernel read on the extended reals is the kernel's own text, with no operation replaced, so there is nothing to
  state between the two readings. Each program's termination with its arguments unchanged comes with its run.
-/
import proofs.«108834_j21380347200134_1_alg».proof.Defs
import proofs.«108834_j21380347200134_1_alg».proof.Proof.Gen.Kernel
import proofs.«108834_j21380347200134_1_alg».proof.Proof.Gen.Kernel.Skeleton
import proofs.«108834_j21380347200134_1_alg».proof.Proof.Gen.Kernel.Launch
import proofs.«108834_j21380347200134_1_alg».proof.Proof.Gen.Kernel.Points
import proofs.«108834_j21380347200134_1_alg».proof.Proof.Gen.Kernel.Frame
import proofs.«108834_j21380347200134_1_alg».proof.Proof.Gen.KernelIdeal
import proofs.«108834_j21380347200134_1_alg».proof.Proof.Gen.KernelIdeal.Skeleton
import proofs.«108834_j21380347200134_1_alg».proof.Proof.Gen.KernelIdeal.Launch
import proofs.«108834_j21380347200134_1_alg».proof.Proof.Gen.KernelIdeal.Points
import proofs.«108834_j21380347200134_1_alg».proof.Proof.Gen.KernelIdeal.Frame
import proofs.«108834_j21380347200134_1_alg».proof.Proof.Gen.ReferenceIdeal
import proofs.«108834_j21380347200134_1_alg».proof.Proof.Gen.ReferenceIdeal.Run
import proofs.«108834_j21380347200134_1_alg».proof.Proof.Gen.ReferenceIdeal.Read
import proofs.«108834_j21380347200134_1_alg».proof.Proof.Gen.Pre_finite_inputs
import proofs.«108834_j21380347200134_1_alg».proof.Proof.KernelRun
import proofs.«108834_j21380347200134_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From arguments that agree, both programs end with the mean loss of those arguments as their result. -/
theorem algebraic : Cert.algebraic_KernelIdeal_ReferenceIdeal := by
  intro m ρ m' ρ' _ hagree
  refine ⟨fun c => fun _ => Cert.Huber.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Huber.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.Huber.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
